-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20x65536x2 : Shape := ⟨3, ![20, 65536, 2]⟩
abbrev S1024x2 : Shape := ⟨2, ![1024, 2]⟩
abbrev S_ : Shape := ⟨0, ![]⟩

class Facts : Prop where
  bcast_S_S20x65536x2 : S_.BroadcastsInDim S20x65536x2 (![] : Fin 0 → Fin S20x65536x2.rank)
  reducesTo_S20x65536x2_S_d0_1_2 : S20x65536x2.ReducesTo [0, 1, 2] S_
  h_S_ : 0 < S_.numel

variable [Facts]

def fn {F : FTy → Type} [FloatOps F] (main_arg0 : FVec F S20x65536x2 .f32) (main_arg1 : FVec F S20x65536x2 .f32) (main_arg2 : IVec S1024x2 32) : IVec S_ 1 :=
  let main_v0 : FVec F S20x65536x2 .f32 := Host.absf main_arg0
  let main_cst : FVec F S_ .f32 := constant S_ .f32 0x7F800000#32
  let main_v1 : FVec F S20x65536x2 .f32 := broadcastInDim S20x65536x2 ![] bcast_S_S20x65536x2 main_cst
  let main_v2 : IVec S20x65536x2 1 := cmpf .olt main_v0 main_v1
  let main_c : IVec S_ 1 := constantI S_ 1 1#1
  let main_v3 : IVec S_ 1 := (fun x v => Host.reduce IntOp.andi x v reducesTo_S20x65536x2_S_d0_1_2 h_S_) main_v2 main_c
  let main_v4 : FVec F S20x65536x2 .f32 := Host.absf main_arg1
  let main_cst_0 : FVec F S_ .f32 := constant S_ .f32 0x7F800000#32
  let main_v5 : FVec F S20x65536x2 .f32 := broadcastInDim S20x65536x2 ![] bcast_S_S20x65536x2 main_cst_0
  let main_v6 : IVec S20x65536x2 1 := cmpf .olt main_v4 main_v5
  let main_c_1 : IVec S_ 1 := constantI S_ 1 1#1
  let main_v7 : IVec S_ 1 := (fun x v => Host.reduce IntOp.andi x v reducesTo_S20x65536x2_S_d0_1_2 h_S_) main_v6 main_c_1
  let main_v8 : IVec S_ 1 := andi main_v3 main_v7
  main_v8
-- ==== Kernel.lean ====
abbrev S20x65536x2 : Shape := ⟨3, ![20, 65536, 2]⟩
abbrev S1024x2 : Shape := ⟨2, ![1024, 2]⟩
abbrev S4194304x20 : Shape := ⟨2, ![4194304, 20]⟩
abbrev S20x512x2 : Shape := ⟨3, ![20, 512, 2]⟩
abbrev S32768x20 : Shape := ⟨2, ![32768, 20]⟩
abbrev S20x64x2 : Shape := ⟨3, ![20, 64, 2]⟩
abbrev S64x20x2 : Shape := ⟨3, ![64, 20, 2]⟩
abbrev S64x1x20x2 : Shape := ⟨4, ![64, 1, 20, 2]⟩
abbrev S1x64x20x2 : Shape := ⟨4, ![1, 64, 20, 2]⟩
abbrev S64x64x20x2 : Shape := ⟨4, ![64, 64, 20, 2]⟩
abbrev S64x64x20 : Shape := ⟨3, ![64, 64, 20]⟩
abbrev S64x64 : Shape := ⟨2, ![64, 64]⟩
abbrev S64x64x1 : Shape := ⟨3, ![64, 64, 1]⟩
abbrev S4096x20 : Shape := ⟨2, ![4096, 20]⟩
abbrev S83886080 : Shape := ⟨1, ![83886080]⟩

abbrev nBuf : Space → Nat
  | .hbm => 5
  | .vmem => 4
  | .smem => 0
  | _ => 0

abbrev bufTy : (tb : Table) → Fin (tcTables nBuf tb) → BufTy
  | .hbm, ⟨0, _⟩ => ⟨S20x65536x2, .f32⟩
  | .hbm, ⟨1, _⟩ => ⟨S20x65536x2, .f32⟩
  | .hbm, ⟨2, _⟩ => ⟨S1024x2, .i32⟩
  | .hbm, ⟨3, _⟩ => ⟨S4194304x20, .f32⟩
  | .hbm, ⟨4, _⟩ => ⟨S83886080, .f32⟩
  | .local _ .vmem, ⟨0, _⟩ => ⟨S20x512x2, .f32⟩
  | .local _ .vmem, ⟨1, _⟩ => ⟨S20x512x2, .f32⟩
  | .local _ .vmem, ⟨2, _⟩ => ⟨S32768x20, .f32⟩
  | .local _ .vmem, ⟨3, _⟩ => ⟨S32768x20, .f32⟩
  | _, _ => ⟨S20x65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c64_i32 : BitVec 32 := 64#32
  let v1 : BitVec 32 := Scalar.muli arg3 c64_i32
  v1
def k0_off1 (k0_t1 : Fin k0_t1_loop.trips) : Fin 3 → Nat :=
  let c0 : Index := 0#32
  let c0_i32 : BitVec 32 := 0#32
  let c1_i32 : BitVec 32 := 1#32
  let arg3 : BitVec 32 := Scf.iv c0_i32 c1_i32 k0_t1
  let c64_i32 : BitVec 32 := 64#32
  let v1 : BitVec 32 := Scalar.muli arg3 c64_i32
  let v2 : BitVec 32 := v1
  let v3 : Index := Scalar.indexCast v2
  let c0_1 : Index := 0#32
  ![0, v3.toNat, 0]
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c64_i32_5 : BitVec 32 := 64#32
  let v31 : BitVec 32 := Scalar.muli arg3 c64_i32_5
  let c64_i32_6 : BitVec 32 := 64#32
  let v32 : BitVec 32 := Scalar.muli v31 c64_i32_6
  v32
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let c64_i32_5 : BitVec 32 := 64#32
  let v31 : BitVec 32 := Scalar.muli arg3 c64_i32_5
  let c64_i32_6 : BitVec 32 := 64#32
  let v32 : BitVec 32 := Scalar.muli v31 c64_i32_6
  let v33 : BitVec 32 := v32
  let v34 : Index := Scalar.indexCast v33
  let c0_7 : Index := 0#32
  ![v34.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S20x64x2 : 0 < S20x64x2.numel
  transposes_S20x64x2_p1_0_2_S64x20x2 : S20x64x2.Transposes [1, 0, 2] S64x20x2
  shapeCasts_S64x20x2_S64x1x20x2 : S64x20x2.ShapeCasts S64x1x20x2
  shapeCasts_S64x20x2_S1x64x20x2 : S64x20x2.ShapeCasts S1x64x20x2
  broadcasts_S64x1x20x2_S64x64x20x2 : S64x1x20x2.Broadcasts S64x64x20x2
  broadcasts_S1x64x20x2_S64x64x20x2 : S1x64x20x2.Broadcasts S64x64x20x2
  reduces_S64x64x20x2_S64x64x20 : S64x64x20x2.Reduces [3] S64x64x20
  iota_S64x64_d0_w32 : S64x64.Iotas .tc 32 [0]
  iota_S64x64_d1_w32 : S64x64.Iotas .tc 32 [1]
  natLt_1_32 : 1 < 32
  shapeCasts_S64x64_S64x64x1 : S64x64.ShapeCasts S64x64x1
  broadcasts_S64x64x1_S64x64x20 : S64x64x1.Broadcasts S64x64x20
  shapeCasts_S64x64x20_S4096x20 : S64x64x20.ShapeCasts S4096x20
  h_S4096x20 : 0 < S4096x20.numel
  shapeCasts_S4194304x20_S83886080 : S4194304x20.ShapeCasts S83886080
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S20x64x2.size a ≤ S20x512x2.size a
  k0_mult2_dvd : ∀ k0_t1 : Fin k0_t1_loop.trips, 8 ∣ (k0_mult2 k0_t1).toNat
  k0_off2_inb : ∀ k0_t1 : Fin k0_t1_loop.trips, ∀ a, (k0_off2 k0_t1) a + S4096x20.size a ≤ S32768x20.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20x512x2.size a ≤ S20x65536x2.size a
  hwx0_0 : ∀ i : grid0.Coords, EltTy.bits .f32 = 32 ∨ (Rect.block (s := S20x65536x2) S20x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768x20.size a ≤ S4194304x20.size a
  hwx0_1 : ∀ i : grid0.Coords, EltTy.bits .f32 = 32 ∨ (Rect.block (s := S4194304x20) S32768x20.size (cc0_transform_1 i) (hinb0_1 i)).WholeWords (EltTy.packing .f32)

variable [Facts₀]

abbrev win0_0 : Pipeline.Window sig grid0 :=
  Pipeline.Window.ofSpec (Memref.whole main_arg0) S20x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32768x20.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S20x65536x2 : Shape := ⟨3, ![20, 65536, 2]⟩
abbrev S1024x2 : Shape := ⟨2, ![1024, 2]⟩
abbrev S65536x20x2 : Shape := ⟨3, ![65536, 20, 2]⟩
abbrev S1024x64x20x2 : Shape := ⟨4, ![1024, 64, 20, 2]⟩
abbrev S1024x20x64x2 : Shape := ⟨4, ![1024, 20, 64, 2]⟩
abbrev S1024x20x64x1x2 : Shape := ⟨5, ![1024, 20, 64, 1, 2]⟩
abbrev S1024x20x1x64x2 : Shape := ⟨5, ![1024, 20, 1, 64, 2]⟩
abbrev S1024x20x64x64x2 : Shape := ⟨5, ![1024, 20, 64, 64, 2]⟩
abbrev S_ : Shape := ⟨0, ![]⟩
abbrev S1024x20x64x64 : Shape := ⟨4, ![1024, 20, 64, 64]⟩
abbrev S64x64 : Shape := ⟨2, ![64, 64]⟩
abbrev S1x1x64x64 : Shape := ⟨4, ![1, 1, 64, 64]⟩
abbrev S1024x20x4096 : Shape := ⟨3, ![1024, 20, 4096]⟩
abbrev S1024x4096x20 : Shape := ⟨3, ![1024, 4096, 20]⟩
abbrev S83886080 : Shape := ⟨1, ![83886080]⟩

abbrev nBuf : Space → Nat
  | .hbm => 40
  | .vmem => 0
  | .smem => 0
  | _ => 0

abbrev bufTy : (tb : Table) → Fin (tcTables nBuf tb) → BufTy
  | .hbm, ⟨0, _⟩ => ⟨S20x65536x2, .f32⟩
  | .hbm, ⟨1, _⟩ => ⟨S20x65536x2, .f32⟩
  | .hbm, ⟨2, _⟩ => ⟨S1024x2, .i32⟩
  | .hbm, ⟨3, _⟩ => ⟨S65536x20x2, .f32⟩
  | .hbm, ⟨4, _⟩ => ⟨S1024x64x20x2, .f32⟩
  | .hbm, ⟨5, _⟩ => ⟨S1024x20x64x2, .f32⟩
  | .hbm, ⟨6, _⟩ => ⟨S1024x20x64x1x2, .f32⟩
  | .hbm, ⟨7, _⟩ => ⟨S1024x20x1x64x2, .f32⟩
  | .hbm, ⟨8, _⟩ => ⟨S1024x20x64x64x2, .f32⟩
  | .hbm, ⟨9, _⟩ => ⟨S1024x20x64x64x2, .f32⟩
  | .hbm, ⟨10, _⟩ => ⟨S1024x20x64x64x2, .f32⟩
  | .hbm, ⟨11, _⟩ => ⟨S1024x20x64x64x2, .f32⟩
  | .hbm, ⟨12, _⟩ => ⟨S_, .f32⟩
  | .hbm, ⟨13, _⟩ => ⟨S1024x20x64x64, .f32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S64x64, .f32⟩
  | .hbm, ⟨21, _⟩ => ⟨S1x1x64x64, .f32⟩
  | .hbm, ⟨22, _⟩ => ⟨S1024x20x64x64, .f32⟩
  | .hbm, ⟨23, _⟩ => ⟨S1024x20x64x64, .f32⟩
  | .hbm, ⟨24, _⟩ => ⟨S1024x20x64x64, .f32⟩
  | .hbm, ⟨25, _⟩ => ⟨S_, .f32⟩
  | .hbm, ⟨26, _⟩ => ⟨S1024x20x64x64, .f32⟩
  | .hbm, ⟨27, _⟩ => ⟨S1024x20x64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S1x1x64x64, .f32⟩
  | .hbm, ⟨32, _⟩ => ⟨S1024x20x64x64, .f32⟩
  | .hbm, ⟨33, _⟩ => ⟨S1024x20x64x64, .f32⟩
  | .hbm, ⟨34, _⟩ => ⟨S_, .f32⟩
  | .hbm, ⟨35, _⟩ => ⟨S1024x20x64x64, .f32⟩
  | .hbm, ⟨36, _⟩ => ⟨S1024x20x64x64, .f32⟩
  | .hbm, ⟨37, _⟩ => ⟨S1024x20x4096, .f32⟩
  | .hbm, ⟨38, _⟩ => ⟨S1024x4096x20, .f32⟩
  | .hbm, ⟨39, _⟩ => ⟨S83886080, .f32⟩
  | _, _ => ⟨S20x65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_cst : Ref sig .tc := ⟨.hbm, 34, rfl⟩
abbrev main_call0_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  transposes_S20x65536x2_S65536x20x2_1_0_2 : S20x65536x2.Transposes [1, 0, 2] S65536x20x2
  shapeCasts_S65536x20x2_S1024x64x20x2 : S65536x20x2.ShapeCasts S1024x64x20x2
  transposes_S1024x64x20x2_S1024x20x64x2_0_2_1_3 : S1024x64x20x2.Transposes [0, 2, 1, 3] S1024x20x64x2
  bcast_S1024x20x64x2_S1024x20x64x1x2_0_1_2_4 : S1024x20x64x2.BroadcastsInDim S1024x20x64x1x2 (![0, 1, 2, 4] : Fin 4 → Fin S1024x20x64x1x2.rank)
  bcast_S1024x20x64x2_S1024x20x1x64x2_0_1_3_4 : S1024x20x64x2.BroadcastsInDim S1024x20x1x64x2 (![0, 1, 3, 4] : Fin 4 → Fin S1024x20x1x64x2.rank)
  bcast_S1024x20x64x1x2_S1024x20x64x64x2_0_1_2_3_4 : S1024x20x64x1x2.BroadcastsInDim S1024x20x64x64x2 (![0, 1, 2, 3, 4] : Fin 5 → Fin S1024x20x64x64x2.rank)
  bcast_S1024x20x1x64x2_S1024x20x64x64x2_0_1_2_3_4 : S1024x20x1x64x2.BroadcastsInDim S1024x20x64x64x2 (![0, 1, 2, 3, 4] : Fin 5 → Fin S1024x20x64x64x2.rank)
  reducesTo_S1024x20x64x64x2_S1024x20x64x64_d4 : S1024x20x64x64x2.ReducesTo [4] S1024x20x64x64
  h_S_ : 0 < S_.numel
  bcast_S_S64x64 : S_.BroadcastsInDim S64x64 (![] : Fin 0 → Fin S64x64.rank)
  bcast_S64x64_S1x1x64x64_2_3 : S64x64.BroadcastsInDim S1x1x64x64 (![2, 3] : Fin 2 → Fin S1x1x64x64.rank)
  bcast_S1x1x64x64_S1024x20x64x64_0_1_2_3 : S1x1x64x64.BroadcastsInDim S1024x20x64x64 (![0, 1, 2, 3] : Fin 4 → Fin S1024x20x64x64.rank)
  bcast_S_S1024x20x64x64 : S_.BroadcastsInDim S1024x20x64x64 (![] : Fin 0 → Fin S1024x20x64x64.rank)
  shapeCasts_S1024x20x64x64_S1024x20x4096 : S1024x20x64x64.ShapeCasts S1024x20x4096
  transposes_S1024x20x4096_S1024x4096x20_0_2_1 : S1024x20x4096.Transposes [0, 2, 1] S1024x4096x20
  shapeCasts_S1024x4096x20_S83886080 : S1024x4096x20.ShapeCasts S83886080

variable [Facts₀]

class Facts : Prop extends Facts₀ where

variable [Facts]
-- ==== Proof.StagedBlock.lean ====
/-
  What one grid point leaves in the output's staging buffer.

  The body walks the 8 groups of 64 pedestrians held in its [20, 512, 2] input block. For group `k` it loads the
  [20, 64, 2] slab at rows `64·k … 64·k + 63` of the middle axis, computes the [4096, 20] pairwise-cost tile of that
  slab, and stores the tile at rows `4096·k … 4096·k + 4095` of the [32768, 20] output block. So row `r` of the
  output block depends only on the slab of group `r / 4096`, and inside the tile it is row `r % 4096`:

      block x (r, t) = tile (slab x (r / 4096)) (r % 4096, t).

  The eight stores tile the block, each store's payload is that one function restricted to its rectangle, and hence
  what the staging buffer reads after the body is that function — whatever order the stores came in.
-/
import proofs.«135333_j76433237999617_2_alg».proof.Proof.Gen.KernelIdeal.Frame
import Idealize.ShloMosaic.Lib.Pipeline.Value
import Idealize.ShloMosaic.Lib.ValueIdx

set_option maxRecDepth 16384

noncomputable section

namespace Cert.KernelIdeal.StagedBlock

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-- The loop makes eight trips: one per group of the block. -/
theorem trips_eq : k0_t1_loop.trips = 8 := by decide

/-- The group a row of the output block belongs to: 4096 = 64 · 64 rows per group. -/
def grp (y : S32768x20.Idx) : Fin k0_t1_loop.trips :=
  ⟨(y 0).val / 4096, by rw [trips_eq]; have h : (y 0).val < 32768 := (y 0).isLt; omega⟩

/-- The row's place inside its group's [4096, 20] tile. -/
def inTile (y : S32768x20.Idx) : S4096x20.Idx :=
  ix2 ⟨(y 0).val % 4096, Nat.mod_lt _ (by decide)⟩ ⟨(y 1).val, (y 1).isLt⟩

/-- Group `k`'s [20, 64, 2] slab of the input block. -/
def slab (x0 : Vec F S20x512x2 .f32) (k : Fin k0_t1_loop.trips) : Vec F S20x64x2 .f32 :=
  View.ld x0 (Rect.unit (s := S20x512x2) (k0_off1 k) S20x64x2.size (k0_off1_inb k))

/-- The output block as one function of the input block. -/
def block (x0 : Vec F S20x512x2 .f32) : Vec F S32768x20 .f32 := fun y =>
  k0_pay1 (slab x0 (grp y)) (inTile y)

/-- A row inside trip `k`'s store rectangle belongs to group `k` … -/
theorem grp_emb (k : Fin k0_t1_loop.trips) (x : S4096x20.Idx) :
    grp ((Rect.unit (s := S32768x20) (k0_off2 k) S4096x20.size (k0_off2_inb k)).emb x) = k := by
  apply Fin.ext
  show ((Rect.unit (s := S32768x20) (k0_off2 k) S4096x20.size (k0_off2_inb k)).emb x 0).val / 4096 = k.val
  rw [Rect.emb_apply]
  show ((k0_off2 k) 0 + 1 * (x 0).val) / 4096 = k.val
  rw [k0_off2_eq k]
  show (4096 * k.val + 1 * (x 0).val) / 4096 = k.val
  have hx : (x 0).val < 4096 := (x 0).isLt
  omega

/-- … and sits in that group's tile where the rectangle's own index says. -/
theorem inTile_emb (k : Fin k0_t1_loop.trips) (x : S4096x20.Idx) :
    inTile ((Rect.unit (s := S32768x20) (k0_off2 k) S4096x20.size (k0_off2_inb k)).emb x) = x := by
  funext a
  apply Fin.ext
  have hx : (x 0).val < 4096 := (x 0).isLt
  match a with
  | ⟨0, _⟩ =>
    show ((Rect.unit (s := S32768x20) (k0_off2 k) S4096x20.size (k0_off2_inb k)).emb x 0).val % 4096 = (x 0).val
    rw [Rect.emb_apply]
    show ((k0_off2 k) 0 + 1 * (x 0).val) % 4096 = (x 0).val
    rw [k0_off2_eq k]
    show (4096 * k.val + 1 * (x 0).val) % 4096 = (x 0).val
    omega
  | ⟨1, _⟩ =>
    show ((Rect.unit (s := S32768x20) (k0_off2 k) S4096x20.size (k0_off2_inb k)).emb x 1).val = (x 1).val
    rw [Rect.emb_apply]
    show (k0_off2 k) 1 + 1 * (x 1).val = (x 1).val
    rw [k0_off2_eq k]
    show 0 + 1 * (x 1).val = (x 1).val
    omega

/-- The one piece trip `k` writes is `block` restricted to its rectangle. -/
theorem trip_piece (𝒱 : Variants) (c : Dev nD) (bd : Option 𝒱.V) (i : grid0.Coords)
    (arg1 : Memref sig .tc .vmem S20x512x2 .f32) (harg1 : arg1.IsWhole)
    (arg2 : Memref sig .tc .vmem S32768x20 .f32) (harg2 : arg2.IsWhole)
    (x0 : Vec F S20x512x2 .f32) (k : Fin k0_t1_loop.trips) :
    ∀ p ∈ tripL_k0_t1 (F := F) 𝒱 c bd i arg1 harg1 arg2 harg2 (harg1.unread x0) k,
      ∀ x : p.1.shape.Idx, p.2 x = block x0 (p.1.emb x) := by
  unfold tripL_k0_t1 trip_k0_t1
  dsimp only
  sl_unfold_words
  intro p hp
  rw [List.mem_singleton] at hp
  subst hp
  intro x
  show k0_pay1 (View.readAt (Elt F) arg1.view (Rect.unit (s := S20x512x2) (k0_off1 k) S20x64x2.size (k0_off1_inb k)).toLoadRect (harg1.unread x0)) x
      = block x0 ((Rect.unit (s := S32768x20) (k0_off2 k) S4096x20.size (k0_off2_inb k)).emb x)
  unfold block
  rw [grp_emb, inTile_emb]
  unfold slab
  rw [View.readAt_eq_ld, harg1.read_unread]

/-- So is every piece of the trips before `n`. -/
theorem pb_pieces (𝒱 : Variants) (c : Dev nD) (bd : Option 𝒱.V) (i : grid0.Coords)
    (arg1 : Memref sig .tc .vmem S20x512x2 .f32) (harg1 : arg1.IsWhole)
    (arg2 : Memref sig .tc .vmem S32768x20 .f32) (harg2 : arg2.IsWhole)
    (x0 : Vec F S20x512x2 .f32) :
    ∀ n : ℕ, ∀ p ∈ pb_k0_t1 (F := F) 𝒱 c bd i arg1 harg1 arg2 harg2 (harg1.unread x0) n,
      ∀ x : p.1.shape.Idx, p.2 x = block x0 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.mp hp with h | h
      · exact trip_piece 𝒱 c bd i arg1 harg1 arg2 harg2 x0 _ p h
      · exact pb_pieces 𝒱 c bd i arg1 harg1 arg2 harg2 x0 n p h
    · exact pb_pieces 𝒱 c bd i arg1 harg1 arg2 harg2 x0 n p hp

/-- What the body leaves in the output's staging buffer, from an input block `x0`: `block x0`. -/
theorem out_eq (c : Dev nD) (i : grid0.Coords)
    (arg1 : Memref sig .tc .vmem S20x512x2 .f32) (harg1 : arg1.IsWhole)
    (arg2 : Memref sig .tc .vmem S32768x20 .f32) (harg2 : arg2.IsWhole)
    (x0 : Vec F S20x512x2 .f32) :
    out0_A_1 c i arg1 harg1 arg2 harg2 x0 = block x0 := by
  unfold out0_A_1
  rw [View.read_writes_eq_canon _ _ _ (cover0_A_1 c i arg1 harg1 arg2 harg2 x0)]
  funext y
  refine View.canon_apply_of_pieces (block x0) _ ?_ y (cover0_A_1 c i arg1 harg1 arg2 harg2 x0 y)
  unfold kernelRun0_A
  dsimp only
  sl_unfold_words
  exact pb_pieces Variants.none c none i arg1 harg1 arg2 harg2 x0 _

end Cert.KernelIdeal.StagedBlock
end
-- ==== Proof.KernelArray.lean ====
/-
  The kernel's [4194304, 20] array after the run, as one function of the trajectory array.

  Grid point `t` (of 128) stages rows `512·t … 512·t + 511` of the trajectory's middle axis — eight groups of 64
  pedestrians — and writes back rows `32768·t … 32768·t + 32767` of the result. Group `k` of point `t` is global group
  `8·t + k`, its slab rows `64·(8·t + k) …` of the trajectory, and its tile rows `4096·(8·t + k) …` of the result.
  So row `r` of the result is row `r % 4096` of the tile of global group `r / 4096`:

      costArray X (r, s) = tile (groupSlab X (r / 4096)) (r % 4096, s),

  every point's written-back block is this function restricted to the block, and the 128 blocks cover the array.
-/
import proofs.«135333_j76433237999617_2_alg».proof.Proof.StagedBlock

set_option maxRecDepth 16384

noncomputable section

namespace Cert.KernelIdeal.KernelArray

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.StagedBlock

variable {F : FTy → Type} [FloatOps F]
variable (m : (ℓ : Loc nD τ sig) → Buf (Elt F) ℓ) (ρ : Dev nD → PrngReg)

/-- Global group `g`'s [20, 64, 2] slab of the trajectory: pedestrians `64·g … 64·g + 63`. -/
def groupSlab (X : S20x65536x2.Idx → Elt F .f32) (g : Fin 1024) : Vec F S20x64x2 .f32 := fun j =>
  X (ix3 ⟨(j 0).val, (j 0).isLt⟩
         ⟨64 * g.val + (j 1).val, by have h : (j 1).val < 64 := (j 1).isLt; have := g.isLt; omega⟩
         ⟨(j 2).val, (j 2).isLt⟩)

/-- The result array: row `r` is row `r % 4096` of the tile of global group `r / 4096`. -/
def costArray (X : S20x65536x2.Idx → Elt F .f32) : S4194304x20.Idx → Elt F .f32 := fun i =>
  k0_pay1 (groupSlab X ⟨(i 0).val / 4096, by have h : (i 0).val < 4194304 := (i 0).isLt; omega⟩)
    (ix2 ⟨(i 0).val % 4096, Nat.mod_lt _ (by decide)⟩ ⟨(i 1).val, (i 1).isLt⟩)

theorem pay_congr {v v' : Vec F S20x64x2 .f32} {a a' : S4096x20.Idx} (hv : v = v') (ha : a = a') :
    k0_pay1 v a = k0_pay1 v' a' := by rw [hv, ha]

/-- The printed index maps over the grid: the input window walks the trajectory's middle axis, the output window the
    result's rows, both at the point's own number. -/
theorem idx_facts : ∀ t : Fin cfg0.N, win0_0.index t (0 : Fin 3) = 0 ∧ win0_0.index t (1 : Fin 3) = t.val
    ∧ win0_0.index t (2 : Fin 3) = 0 ∧ win0_1.index t (0 : Fin 2) = t.val ∧ win0_1.index t (1 : Fin 2) = 0 :=
  (by decide +kernel : ∀ t : Fin grid0.N, _)

theorem lt_N (t : Fin cfg0.N) : t.val < 128 :=
  Nat.lt_of_lt_of_eq t.isLt (show cfg0.N = 128 from N_0)

/-- Group `k` of the block staged at point `t` is global group `8·t + k` of the trajectory. -/
theorem slab_iblk (c : Dev nD) (t : Fin cfg0.N) (k : Fin k0_t1_loop.trips) (g : Fin 1024) (hg : g.val = 8 * t.val + k.val) :
    slab (iblk m c 0 t) k = groupSlab (V m c main_arg0) g := by
  obtain ⟨e0, e1, e2, -, -⟩ := idx_facts t
  funext z
  unfold slab groupSlab iblk
  show V m c main_arg0 (((cfg0.win 0).blk t).view.emb ((Rect.unit (s := S20x512x2) (k0_off1 k) S20x64x2.size (k0_off1_inb k)).idx z)) = _
  refine congrArg (V m c main_arg0) ?_
  funext a
  apply Fin.ext
  have hk := k0_off1_eq k
  match a with
  | ⟨0, _⟩ =>
    show win0_0.index t (0 : Fin 3) * 20 + 1 * ((k0_off1 k) 0 + 1 * (z 0).val) = (z 0).val
    rw [hk, e0]; show 0 * 20 + 1 * (0 + 1 * (z 0).val) = (z 0).val; omega
  | ⟨1, _⟩ =>
    show win0_0.index t (1 : Fin 3) * 512 + 1 * ((k0_off1 k) 1 + 1 * (z 1).val) = 64 * g.val + (z 1).val
    rw [hk, e1]; show t.val * 512 + 1 * (64 * k.val + 1 * (z 1).val) = 64 * g.val + (z 1).val; omega
  | ⟨2, _⟩ =>
    show win0_0.index t (2 : Fin 3) * 2 + 1 * ((k0_off1 k) 2 + 1 * (z 2).val) = (z 2).val
    rw [hk, e2]; show 0 * 2 + 1 * (0 + 1 * (z 2).val) = (z 2).val; omega

/-- WHAT POINT `t` WRITES BACK is block `t` of `costArray` of the trajectory as the region finds it. -/
theorem flushed_eq (c : Dev nD) (t : Fin cfg0.N) :
    (dats m 0 c).flushed 1 t = ((cfg0.win 1).blk t).view.read (Elt F) (costArray (V m c main_arg0)) := by
  show (cfg0.win 1).cut (grid0.coords t) ((dats m 0 c).after 1 t) = _
  rw [after0_1]
  unfold outsAt0
  rw [out_eq]
  obtain ⟨-, -, -, e3, e4⟩ := idx_facts t
  have ht := lt_N t
  funext j
  have hj0 : (j 0).val < 32768 := (j 0).isLt
  show block (iblk m c 0 t) j = costArray (V m c main_arg0) (((cfg0.win 1).blk t).view.emb j)
  have r0 : ((((cfg0.win 1).blk t).view.emb j) 0).val = t.val * 32768 + (j 0).val := by
    show win0_1.index t (0 : Fin 2) * 32768 + 1 * (j 0).val = _
    rw [e3]; omega
  have r1 : ((((cfg0.win 1).blk t).view.emb j) 1).val = (j 1).val := by
    show win0_1.index t (1 : Fin 2) * 20 + 1 * (j 1).val = _
    rw [e4]; omega
  unfold block costArray
  refine pay_congr (slab_iblk m c t (grp j) _ ?_) ?_
  · show (((((cfg0.win 1).blk t).view.emb j) 0).val / 4096) = 8 * t.val + (j 0).val / 4096
    rw [r0]; omega
  · funext a
    apply Fin.ext
    match a with
    | ⟨0, _⟩ =>
      show (j 0).val % 4096 = ((((cfg0.win 1).blk t).view.emb j) 0).val % 4096
      rw [r0]; omega
    | ⟨1, _⟩ =>
      show (j 1).val = ((((cfg0.win 1).blk t).view.emb j) 1).val
      rw [r1]

/-- An index of the array is in point `t`'s block iff each coordinate is in the block's range on its axis. -/
theorem mem_blk (t : Fin cfg0.N) (i : S4194304x20.Idx) :
    i ∈ ((cfg0.win 1).blk t).view.set ↔ ∀ a : Fin 2, win0_1.index t a * S32768x20.size a ≤ (i a).val ∧ (i a).val < win0_1.index t a * S32768x20.size a + S32768x20.size a := by
  show i ∈ ((View.whole main_v0).slice (win0_1.rect t)).set ↔ _
  rw [View.set_slice_whole, Rect.mem_set_unit]
  exact Iff.rfl

/-- Every row of the result is in the block of the point `row / 32768`, which is written back. -/
theorem cover (i : S4194304x20.Idx) :
    ∃ t : Fin cfg0.N, (cfg0.win 1).flush t = true ∧ i ∈ ((cfg0.win 1).blk t).view.set := by
  have hi0 : (i 0).val < 4194304 := (i 0).isLt
  have hi1 : (i 1).val < 20 := (i 1).isLt
  let t : Fin cfg0.N := ⟨(i 0).val / 32768, Nat.lt_of_lt_of_eq (by omega) (show 128 = cfg0.N from N_0.symm)⟩
  obtain ⟨-, -, -, e3, e4⟩ := idx_facts t
  have tv : t.val = (i 0).val / 32768 := rfl
  refine ⟨t, flush0_1 t, ?_⟩
  rw [mem_blk]
  intro a
  match a with
  | ⟨0, _⟩ =>
    show win0_1.index t (0 : Fin 2) * 32768 ≤ (i 0).val ∧ (i 0).val < win0_1.index t (0 : Fin 2) * 32768 + 32768
    rw [e3, tv]; omega
  | ⟨1, _⟩ =>
    show win0_1.index t (1 : Fin 2) * 20 ≤ (i 1).val ∧ (i 1).val < win0_1.index t (1 : Fin 2) * 20 + 20
    rw [e4]; omega

/-- THE ARRAY after the run: `costArray` of the trajectory as the region finds it. -/
theorem final (c : Dev nD) : (dats m 0 c).arrAt 1 cfg0.N = costArray (V m c main_arg0) :=
  (dats m 0 c).arrAt_eq_of_cover 1 (costArray (V m c main_arg0)) (fun t _ => flushed_eq m c t) cover

end Cert.KernelIdeal.KernelArray
end
-- ==== Proof.KernelRun.lean ====
/-
  The kernel program's run, with its result named.

  After the region the program flattens the [4194304, 20] array to the 83886080-entry result, and nothing else
  touches either. So the result is the flattening of `costArray` of the trajectory, and the three arguments end as
  they began.
-/
import proofs.«135333_j76433237999617_2_alg».proof.Proof.KernelArray
import Idealize.ShloMosaic.Lib.StableHlo.Run

set_option maxRecDepth 16384

noncomputable section

namespace Cert.KernelIdeal.KernelRun

open Idealize.ShloMosaic Idealize.ShloMosaic.TcCoe
open Idealize.SL Idealize.SL.Sem Idealize.ShloMosaic.StableHlo
open Idealize.ShloMosaic.Pipeline (Dat)
open Cert.KernelIdeal Cert.KernelIdeal.Gen Cert.KernelIdeal.KernelArray

variable {F : FTy → Type} [FloatOps F]
variable (m : (ℓ : Loc nD τ sig) → Buf (Elt F) ℓ) (ρ : Dev nD → PrngReg)

/-- The flattened result as a function of the trajectory. -/
def result (X : S20x65536x2.Idx → Elt F .f32) : S83886080.Idx → Elt F .f32 :=
  shapeCast S83886080 (costArray X) shapeCasts_S4194304x20_S83886080

/-- What the line after the region leaves in the result buffer. -/
theorem tail_eq (c : Dev nD) :
    Pipeline.afterTail₀ cfgs (dats m) 0 (V0 m) [hostOps1] c main_v1 = result (m ((c : Thread nD τ).loc main_arg0)) := by
  have hw := (Pipeline.withArrays_arr spec0 launch0.win.arr_inj c (V0 m c) (fun w => (dats m 0 c).arrAt w cfg0.N) 1).trans
    (final m c)
  unfold Pipeline.afterTail₀
  show StableHlo.after hostOps1 _ (Proc.devRef .tc main_v1) = _
  after_results
  rw [show Pipeline.withArrays (cfgs 0).spec c (V0 m c) (fun w => (dats m 0 c).arrAt w (cfgs 0).N) (Proc.tc.devRef main_v0)
      = costArray (V m c main_arg0) from hw]
  rfl

/-- THE RUN: every weakly fair execution ends with the result at `result` of the trajectory, the arguments unchanged. -/
theorem run : θ_run defs (onTc (τ := τ) (main (F := F))) ⟨m, fun _ => 0, ρ⟩ fun r => ∀ c : Dev nD,
      r.2.mem ((c.tc : Thread nD τ).loc main_v1) = result (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KernelRun
end
-- ==== Proof.PairCost.lean ====
/-
  The mathematics both programs compute, with no program in sight.

  For a scene of 64 pedestrians at one timestep, pedestrians `p` and `q` at points `a, b` of the plane cost

      max (1/4 − √(|a − b|² + δ) − 1/4 · δ) 0,      δ = 1 if p = q, else 0,

  a hinge on the distance that is switched off on the diagonal (there `|a − b|² = 0`, `√1 = 1`, and
  `1/4 − 1 − 1/4 < 0`). Both programs form `δ` by comparing two integer ramps and converting the one-bit answer to a
  float — one widens the bit to 32 bits and converts it as a signed integer, the other converts the bit as an unsigned
  one — and both conversions give `δ`: a bit widened with zeros is non-negative. The two literals are kept as the
  words the programs print; nothing here depends on their values.
-/
import Idealize.ShloMosaic.PureOps.Ideal
import Idealize.ShloMosaic.PureOps.Ideal.Laws
import Idealize.ShloMosaic.Lib.ValueIdx

noncomputable section

namespace Cert.PairCost

open Idealize.ShloMosaic Idealize.ShloMosaic.ValueIdx

/-- The literal `0.25`, as printed. -/
abbrev quarter : EReal := Ideal.ofBits .f32 0x3E800000#32
/-- The literal `0.0`, as printed. -/
abbrev zeroLit : EReal := Ideal.ofBits .f32 0x00000000#32

/-- The identity matrix's entry. -/
def eye (p q : Fin 64) : EReal := if p = q then 1 else 0

/-- The cost of a pair whose squared distance is `s` and whose identity entry is `e`. -/
def cell (s e : EReal) : EReal := max (quarter - Ideal.sqrt (s + e) - quarter * e) zeroLit

/-- The squared distance of two points of the plane. -/
def sqDist (a b : Fin 2 → EReal) : EReal := ∑ k : Fin 2, (a k - b k) * (a k - b k)

/-- Comparing the two ramps and widening the bit: read signed, it is 1 on the diagonal and 0 off it. -/
theorem widened_bit : ∀ p q : Fin 64,
    ((IntOp.cmpi .eq (BitVec.ofNat 32 p.val) (BitVec.ofNat 32 q.val)).setWidth 32).toInt = if p = q then 1 else 0 := by
  decide +kernel

/-- Comparing the ramps (one with a zero added) and reading the bit unsigned: the same. -/
theorem plain_bit : ∀ p q : Fin 64,
    (IntOp.cmpi .eq (IntOp.addi (BitVec.ofNat 32 p.val) 0#32) (BitVec.ofNat 32 q.val)).toNat = if p = q then 1 else 0 := by
  decide +kernel

theorem eye_signed (p q : Fin 64) :
    ((((IntOp.cmpi .eq (BitVec.ofNat 32 p.val) (BitVec.ofNat 32 q.val)).setWidth 32).toInt : ℝ) : EReal) = eye p q := by
  rw [widened_bit]; unfold eye; split_ifs <;> simp

theorem eye_unsigned (p q : Fin 64) :
    (((IntOp.cmpi .eq (IntOp.addi (BitVec.ofNat 32 p.val) 0#32) (BitVec.ofNat 32 q.val)).toNat : ℝ) : EReal) = eye p q := by
  rw [plain_bit]; unfold eye; split_ifs <;> simp

/-- Pedestrian `p` of scene `g` in the trajectory's middle axis: scenes are contiguous runs of 64. -/
def ped (g : Fin 1024) (p : Fin 64) : Fin 65536 := ⟨64 * g.val + p.val, by have := g.isLt; have := p.isLt; omega⟩

/-- THE SPECIFICATION, by coordinates: the cost of pedestrians `p`, `q` of scene `g` at time `t`, from the
    trajectory `X` (time, pedestrian, coordinate). -/
def pairAt (X : (⟨3, ![20, 65536, 2]⟩ : Shape).Idx → EReal) (g : Fin 1024) (p q : Fin 64) (t : Fin 20) : EReal :=
  cell (sqDist (fun k => X (ix3 t (ped g p) k)) (fun k => X (ix3 t (ped g q) k))) (eye p q)

/-- Where that cost sits in the flat result: scene-major, then the pair `64·p + q`, then time. -/
def flatPos (g : Fin 1024) (p q : Fin 64) (t : Fin 20) : Nat := ((g.val * 4096 + (p.val * 64 + q.val)) * 20 + t.val)

end Cert.PairCost
end
-- ==== Proof.Tile.lean ====
/-
  One group's [4096, 20] tile, entry by entry.

  The body's arithmetic on a [20, 64, 2] slab `v` (time, pedestrian, coordinate): swap the first two axes, set the
  slab against itself along a new axis on either side, subtract, square, sum the two coordinates, add the identity
  matrix (spread over time), take the root, and apply the hinge; finally rows `(p, q)` are flattened to `64·p + q`.
  Read at row `64·p + q` and time `t` this is the pair cost of the points `v (t, p, ·)` and `v (t, q, ·)`:
  every layout step reads one entry of its operand, the lane sum is a sum over the two coordinates, and the
  identity entry is the widened comparison bit of the two ramps.
-/
import proofs.«135333_j76433237999617_2_alg».proof.Proof.Gen.KernelIdeal.Skeleton
import proofs.«135333_j76433237999617_2_alg».proof.Proof.PairCost
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.ValueIdx
open Cert.KernelIdeal Cert.KernelIdeal.Gen Cert.PairCost

/-- The slab with time and pedestrian swapped. -/
def swapped (v : Vec Ideal S20x64x2 .f32) : FVec Ideal S64x20x2 .f32 :=
  transpose S64x20x2 [1, 0, 2] v transposes_S20x64x2_p1_0_2_S64x20x2

/-- Pedestrian `p`'s coordinates, repeated along `q`. -/
def rowsOf (v : Vec Ideal S20x64x2 .f32) : FVec Ideal S64x64x20x2 .f32 :=
  broadcastTo S64x64x20x2 (shapeCast S64x1x20x2 (swapped v) shapeCasts_S64x20x2_S64x1x20x2) broadcasts_S64x1x20x2_S64x64x20x2

/-- Pedestrian `q`'s coordinates, repeated along `p`. -/
def colsOf (v : Vec Ideal S20x64x2 .f32) : FVec Ideal S64x64x20x2 .f32 :=
  broadcastTo S64x64x20x2 (shapeCast S1x64x20x2 (swapped v) shapeCasts_S64x20x2_S1x64x20x2) broadcasts_S1x64x20x2_S64x64x20x2

/-- The squared coordinate differences. -/
def sqDiff (v : Vec Ideal S20x64x2 .f32) : FVec Ideal S64x64x20x2 .f32 :=
  mulf (subf (rowsOf v) (colsOf v)) (subf (rowsOf v) (colsOf v))

/-- Their sum over the two coordinates. -/
def sqNorm (v : Vec Ideal S20x64x2 .f32) : FVec Ideal S64x64x20 .f32 :=
  multiReduction (F := Ideal) .add [3] S64x64x20 (sqDiff v) 0x00000000#32 reduces_S64x64x20x2_S64x64x20 (.inl rfl) rfl

/-- The identity matrix, from the two ramps. -/
def eyeMat : FVec Ideal S64x64 .f32 :=
  sitofp .f32 (extui 32 (cmpi .eq (iota .tc S64x64 32 [0] iota_S64x64_d0_w32) (iota .tc S64x64 32 [1] iota_S64x64_d1_w32)) natLt_1_32)

/-- … with a trailing unit axis. -/
def eyeCol : FVec Ideal S64x64x1 .f32 := shapeCast S64x64x1 eyeMat shapeCasts_S64x64_S64x64x1

/-- The body's payload over these stages. -/
def tile (v : Vec Ideal S20x64x2 .f32) : FVec Ideal S4096x20 .f32 :=
  shapeCast S4096x20
    (maximumf
      (subf
        (subf (broadcast S64x64x20 (Scalar.ofBits (F := Ideal) .f32 0x3E800000#32))
          (sqrt (addf (sqNorm v) (broadcastTo S64x64x20 eyeCol broadcasts_S64x64x1_S64x64x20))))
        (broadcastTo S64x64x20 (mulf (broadcast S64x64x1 (Scalar.ofBits (F := Ideal) .f32 0x3E800000#32)) eyeCol) broadcasts_S64x64x1_S64x64x20))
      (broadcast S64x64x20 (Scalar.ofBits (F := Ideal) .f32 0x00000000#32)))
    shapeCasts_S64x64x20_S4096x20

/-- The printed payload is these stages composed. -/
theorem pay_eq (v : Vec Ideal S20x64x2 .f32) : k0_pay1 (F := Ideal) v = tile v := rfl

theorem swapped_apply (v : Vec Ideal S20x64x2 .f32) (p : Fin 64) (t : Fin 20) (k : Fin 2) :
    swapped v (ix3 p t k) = v (ix3 t p k) := by
  unfold swapped
  exact transpose_apply [1, 0, 2] v transposes_S20x64x2_p1_0_2_S64x20x2 (ix3 p t k) (ix3 t p k) (fun b => match b with
    | ⟨0, _⟩ => rfl
    | ⟨1, _⟩ => rfl
    | ⟨2, _⟩ => rfl)

theorem rowsOf_apply (v : Vec Ideal S20x64x2 .f32) (p q : Fin 64) (t : Fin 20) (k : Fin 2) :
    rowsOf v (ix4 p q t k) = v (ix3 t p k) := by
  unfold rowsOf
  refine (broadcastTo_apply _ broadcasts_S64x1x20x2_S64x64x20x2 (ix4 p q t k) (ix4 p (0 : Fin 1) t k) (fun a => match a with
    | ⟨0, _⟩ => by show p.val = if (64 : Nat) = 1 then 0 else p.val; rw [if_neg (by decide)]
    | ⟨1, _⟩ => by show 0 = if (1 : Nat) = 1 then 0 else q.val; rw [if_pos rfl]
    | ⟨2, _⟩ => by show t.val = if (20 : Nat) = 1 then 0 else t.val; rw [if_neg (by decide)]
    | ⟨3, _⟩ => by show k.val = if (2 : Nat) = 1 then 0 else k.val; rw [if_neg (by decide)])).trans ?_
  refine (shapeCast_apply (swapped v) shapeCasts_S64x20x2_S64x1x20x2 (ix4 p (0 : Fin 1) t k) (ix3 p t k) ?_).trans (swapped_apply v p t k)
  rw [Shape.rowMajor_val_three, Shape.rowMajor_val_four]
  show (p.val * 20 + t.val) * 2 + k.val = ((p.val * 1 + 0) * 20 + t.val) * 2 + k.val
  omega

theorem colsOf_apply (v : Vec Ideal S20x64x2 .f32) (p q : Fin 64) (t : Fin 20) (k : Fin 2) :
    colsOf v (ix4 p q t k) = v (ix3 t q k) := by
  unfold colsOf
  refine (broadcastTo_apply _ broadcasts_S1x64x20x2_S64x64x20x2 (ix4 p q t k) (ix4 (0 : Fin 1) q t k) (fun a => match a with
    | ⟨0, _⟩ => by show 0 = if (1 : Nat) = 1 then 0 else p.val; rw [if_pos rfl]
    | ⟨1, _⟩ => by show q.val = if (64 : Nat) = 1 then 0 else q.val; rw [if_neg (by decide)]
    | ⟨2, _⟩ => by show t.val = if (20 : Nat) = 1 then 0 else t.val; rw [if_neg (by decide)]
    | ⟨3, _⟩ => by show k.val = if (2 : Nat) = 1 then 0 else k.val; rw [if_neg (by decide)])).trans ?_
  refine (shapeCast_apply (swapped v) shapeCasts_S64x20x2_S1x64x20x2 (ix4 (0 : Fin 1) q t k) (ix3 q t k) ?_).trans (swapped_apply v q t k)
  rw [Shape.rowMajor_val_three, Shape.rowMajor_val_four]
  show (q.val * 20 + t.val) * 2 + k.val = ((0 * 64 + q.val) * 20 + t.val) * 2 + k.val
  omega

/-- The lane sum, with the accumulator's neutrality stated as the printed program states it. -/
theorem laneSum (src : FVec Ideal S64x64x20x2 .f32) (hφ : FKind.Formats .f32)
    (hacc : (0x00000000#32 : BitVec 32) = FKind.add.neutral .f32 hφ) (j : S64x64x20.Idx) :
    multiReduction (F := Ideal) .add [3] S64x64x20 src 0x00000000#32 reduces_S64x64x20x2_S64x64x20 hφ hacc j
      = ∑ k : Fin 2, src (reduces_S64x64x20x2_S64x64x20.lift j k) :=
  Ideal.multiReduction_add_single src 0x00000000#32 reduces_S64x64x20x2_S64x64x20 hφ hacc j

theorem sqNorm_apply (v : Vec Ideal S20x64x2 .f32) (p q : Fin 64) (t : Fin 20) :
    sqNorm v (ix3 p q t) = sqDist (fun k => v (ix3 t p k)) (fun k => v (ix3 t q k)) := by
  unfold sqNorm
  refine (laneSum (sqDiff v) (.inl rfl) rfl (ix3 p q t)).trans ?_
  unfold sqDist
  refine Finset.sum_congr rfl fun k _ => ?_
  have hl : reduces_S64x64x20x2_S64x64x20.lift (ix3 p q t) k = ix4 p q t k :=
    funext fun a => Fin.ext (by match a with | ⟨0, _⟩ => rfl | ⟨1, _⟩ => rfl | ⟨2, _⟩ => rfl | ⟨3, _⟩ => rfl)
  rw [hl]
  unfold sqDiff
  rw [mulf_apply, subf_apply, rowsOf_apply, colsOf_apply]

theorem eyeMat_apply (p q : Fin 64) : eyeMat (ix2 p q) = eye p q := by
  unfold eyeMat
  rw [sitofp_apply, extui_apply]
  show FloatOps.sitofp (F := Ideal) .f32
      ((IntOp.cmpi .eq (iota .tc S64x64 32 [0] iota_S64x64_d0_w32 (ix2 p q)) (iota .tc S64x64 32 [1] iota_S64x64_d1_w32 (ix2 p q))).setWidth 32) = _
  rw [iota_single_apply, iota_single_apply]
  exact eye_signed p q

theorem eyeCol_apply (p q : Fin 64) : eyeCol (ix3 p q (0 : Fin 1)) = eye p q := by
  unfold eyeCol
  refine (shapeCast_apply eyeMat shapeCasts_S64x64_S64x64x1 (ix3 p q (0 : Fin 1)) (ix2 p q) ?_).trans (eyeMat_apply p q)
  rw [Shape.rowMajor_val_two, Shape.rowMajor_val_three]
  show p.val * 64 + q.val = (p.val * 64 + q.val) * 1 + 0
  omega

/-- A [64, 64, 1] column spread over the 20 timesteps reads its one entry. -/
theorem spread_apply (w : FVec Ideal S64x64x1 .f32) (p q : Fin 64) (t : Fin 20) :
    broadcastTo S64x64x20 w broadcasts_S64x64x1_S64x64x20 (ix3 p q t) = w (ix3 p q (0 : Fin 1)) :=
  broadcastTo_apply w broadcasts_S64x64x1_S64x64x20 (ix3 p q t) (ix3 p q (0 : Fin 1)) (fun a => match a with
    | ⟨0, _⟩ => by show p.val = if (64 : Nat) = 1 then 0 else p.val; rw [if_neg (by decide)]
    | ⟨1, _⟩ => by show q.val = if (64 : Nat) = 1 then 0 else q.val; rw [if_neg (by decide)]
    | ⟨2, _⟩ => by show 0 = if (1 : Nat) = 1 then 0 else t.val; rw [if_pos rfl])

/-- THE TILE'S ENTRY at row `64·p + q`, time `t`: the pair cost of pedestrians `p` and `q` of the slab at time `t`. -/
theorem tile_apply (v : Vec Ideal S20x64x2 .f32) (p q : Fin 64) (t : Fin 20) (r : Fin 4096) (hr : r.val = 64 * p.val + q.val) :
    tile v (ix2 r t) = cell (sqDist (fun k => v (ix3 t p k)) (fun k => v (ix3 t q k))) (eye p q) := by
  unfold tile
  refine (shapeCast_apply _ shapeCasts_S64x64x20_S4096x20 (ix2 r t) (ix3 p q t) ?_).trans ?_
  · rw [Shape.rowMajor_val_three, Shape.rowMajor_val_two]
    show (p.val * 64 + q.val) * 20 + t.val = r.val * 20 + t.val
    omega
  · rw [maximumf_apply, subf_apply, subf_apply, spread_apply, mulf_apply]
    show max (Ideal.ofBits .f32 0x3E800000#32 - Ideal.sqrt (addf (sqNorm v) (broadcastTo S64x64x20 eyeCol broadcasts_S64x64x1_S64x64x20) (ix3 p q t))
        - Ideal.ofBits .f32 0x3E800000#32 * eyeCol (ix3 p q (0 : Fin 1))) (Ideal.ofBits .f32 0x00000000#32) = _
    rw [addf_apply, spread_apply, sqNorm_apply, eyeCol_apply]
    rfl

end Cert.KernelIdeal.Tile
end
-- ==== Proof.KernelCost.lean ====
/-
  The kernel's result, entry by entry.

  The flat position of `(g, p, q, t)` is row `4096·g + 64·p + q`, column `t` of the [4194304, 20] array; that row
  is row `64·p + q` of scene `g`'s tile, whose slab holds pedestrians `64·g …` of the trajectory. So the entry is the
  pair cost of pedestrians `p`, `q` of scene `g` at time `t`: `pairAt`.
-/
import proofs.«135333_j76433237999617_2_alg».proof.Proof.KernelRun
import proofs.«135333_j76433237999617_2_alg».proof.Proof.Tile

noncomputable section

namespace Cert.KernelIdeal.KernelCost

open Idealize.ShloMosaic Idealize.ShloMosaic.ValueIdx
open Cert.KernelIdeal Cert.KernelIdeal.Gen Cert.KernelIdeal.KernelArray Cert.KernelIdeal.KernelRun Cert.KernelIdeal.Tile
open Cert.PairCost

/-- THE KERNEL'S RESULT at the flat position of `(g, p, q, t)`. -/
theorem result_apply (X : S20x65536x2.Idx → Elt Ideal .f32) (g : Fin 1024) (p q : Fin 64) (t : Fin 20)
    (n : Fin 83886080) (hn : n.val = flatPos g p q t) :
    result (F := Ideal) X (ix1 n) = pairAt X g p q t := by
  have hg := g.isLt; have hp := p.isLt; have hq := q.isLt; have ht := t.isLt
  unfold flatPos at hn
  have hR : 4096 * g.val + (64 * p.val + q.val) < 4194304 := by omega
  unfold result
  refine (shapeCast_apply (costArray X) shapeCasts_S4194304x20_S83886080 (ix1 n)
    (ix2 (⟨4096 * g.val + (64 * p.val + q.val), hR⟩ : Fin 4194304) t) ?_).trans ?_
  · rw [Shape.rowMajor_val_two, Shape.rowMajor_val_one]
    show (4096 * g.val + (64 * p.val + q.val)) * 20 + t.val = n.val
    omega
  · unfold costArray
    rw [pay_eq]
    have hscene : (⟨(4096 * g.val + (64 * p.val + q.val)) / 4096, by omega⟩ : Fin 1024) = g := Fin.ext (by
      show (4096 * g.val + (64 * p.val + q.val)) / 4096 = g.val; omega)
    show tile (groupSlab X ⟨(4096 * g.val + (64 * p.val + q.val)) / 4096, _⟩)
        (ix2 (⟨(4096 * g.val + (64 * p.val + q.val)) % 4096, Nat.mod_lt _ (by decide)⟩ : Fin 4096) t) = _
    rw [hscene, tile_apply _ p q t _ (by show (4096 * g.val + (64 * p.val + q.val)) % 4096 = 64 * p.val + q.val; omega)]
    rfl

end Cert.KernelIdeal.KernelCost
end
-- ==== Proof.RefCost.lean ====
/-
  The reference, entry by entry.

  The reference regroups the trajectory as (scene, time, pedestrian, coordinate) — entry `(g, t, p, k)` is the
  trajectory at time `t`, pedestrian `64·g + p`, coordinate `k` —, sets it against itself along two new axes,
  subtracts, squares, sums the two coordinates from zero, adds the identity matrix (spread over scenes and times), takes
  the root and applies the hinge. The [1024, 20, 64, 64] costs are then laid out scene-major with the pair `64·p + q`
  ahead of time. Read at that flat position the result is `pairAt` of the trajectory.
-/
import proofs.«135333_j76433237999617_2_alg».proof.Proof.Gen.ReferenceIdeal.Read
import proofs.«135333_j76433237999617_2_alg».proof.Proof.PairCost
import Idealize.ShloMosaic.Lib.ValueIdx

noncomputable section

namespace Cert.ReferenceIdeal.RefCost

open Idealize.ShloMosaic Idealize.ShloMosaic.ValueIdx
open Cert.ReferenceIdeal Cert.ReferenceIdeal.Gen Cert.ReferenceIdeal.Read Cert.PairCost

variable (x : (⟨S20x65536x2, .f32⟩ : BufTy).Contents (Elt Ideal))

/-- The regrouped trajectory: (scene, time, pedestrian, coordinate). -/
theorem scene_apply (g : Fin 1024) (t : Fin 20) (p : Fin 64) (k : Fin 2) :
    val_main_v2 (F := Ideal) x (ix4 g t p k) = x (ix3 t (ped g p) k) := by
  rw [val_main_v2_apply, val_main_v1_apply, val_main_v0_apply]
  refine congrArg x (funext fun a => Fin.ext ?_)
  have hg := g.isLt; have ht := t.isLt; have hp := p.isLt; have hk := k.isLt
  match a with
  | ⟨0, _⟩ => show (((g.val * 64 + p.val) * 20 + t.val) * 2 + k.val) / 2 % 20 = t.val; omega
  | ⟨1, _⟩ => show (((g.val * 64 + p.val) * 20 + t.val) * 2 + k.val) / 40 = 64 * g.val + p.val; omega
  | ⟨2, _⟩ => show (((g.val * 64 + p.val) * 20 + t.val) * 2 + k.val) % 2 = k.val; omega

/-- The coordinate difference of pedestrians `p` and `q`. -/
theorem diff_apply (g : Fin 1024) (t : Fin 20) (p q : Fin 64) (k : Fin 2) :
    val_main_v7 (F := Ideal) x (ix5 g t p q k) = x (ix3 t (ped g p) k) - x (ix3 t (ped g q) k) := by
  rw [val_main_v7_apply, val_main_v5_apply, val_main_v6_apply, val_main_v3_apply, val_main_v4_apply]
  have e1 : idx_main_v3 (idx_main_v5 (ix5 g t p q k)) = ix4 g t p k :=
    funext fun a => Fin.ext (by match a with | ⟨0, _⟩ => rfl | ⟨1, _⟩ => rfl | ⟨2, _⟩ => rfl | ⟨3, _⟩ => rfl)
  have e2 : idx_main_v4 (idx_main_v6 (ix5 g t p q k)) = ix4 g t q k :=
    funext fun a => Fin.ext (by match a with | ⟨0, _⟩ => rfl | ⟨1, _⟩ => rfl | ⟨2, _⟩ => rfl | ⟨3, _⟩ => rfl)
  rw [e1, e2, scene_apply, scene_apply]
  rfl

/-- The squared distance: the host's sum starts from the literal zero. -/
theorem sq_apply (g : Fin 1024) (t : Fin 20) (p q : Fin 64) :
    val_main_v9 (F := Ideal) x (ix4 g t p q)
      = sqDist (fun k => x (ix3 t (ped g p) k)) (fun k => x (ix3 t (ped g q) k)) := by
  rw [val_main_v9_apply, val_main_cst_apply]
  show Ideal.ofBits .f32 0x00000000#32 + _ = _
  rw [Ideal.ofBits_zero_f32, zero_add]
  unfold sqDist
  refine Finset.sum_congr rfl fun k _ => ?_
  have e : idx_main_v9 (ix4 g t p q) k = ix5 g t p q k :=
    funext fun a => Fin.ext (by match a with | ⟨0, _⟩ => rfl | ⟨1, _⟩ => rfl | ⟨2, _⟩ => rfl | ⟨3, _⟩ => rfl | ⟨4, _⟩ => rfl)
  rw [e, val_main_v8_apply, diff_apply]
  rfl

/-- The identity matrix from the two ramps. -/
theorem eye_apply (p q : Fin 64) : val_main_v15 (F := Ideal) (ix2 p q) = eye p q := by
  rw [val_main_v15_apply, val_main_v14_apply, val_main_v13_apply, val_main_v10_apply, val_main_v11_apply,
    val_main_v12_apply, val_main_c_apply]
  exact eye_unsigned p q

/-- … spread over scenes and times. -/
theorem eyeAll_apply (g : Fin 1024) (t : Fin 20) (p q : Fin 64) :
    val_main_v17 (F := Ideal) (ix4 g t p q) = eye p q := by
  rw [val_main_v17_apply, val_main_v16_apply]
  have e : idx_main_v16 (idx_main_v17 (ix4 g t p q)) = ix2 p q :=
    funext fun a => Fin.ext (by match a with | ⟨0, _⟩ => rfl | ⟨1, _⟩ => rfl)
  rw [e, eye_apply]

/-- A quarter of it, spread likewise. -/
theorem quarterEye_apply (g : Fin 1024) (t : Fin 20) (p q : Fin 64) :
    val_main_v25 (F := Ideal) (ix4 g t p q) = quarter * eye p q := by
  rw [val_main_v25_apply, val_main_v24_apply]
  have e : idx_main_v24 (idx_main_v25 (ix4 g t p q)) = ix2 p q :=
    funext fun a => Fin.ext (by match a with | ⟨0, _⟩ => rfl | ⟨1, _⟩ => rfl)
  rw [e, val_main_v23_apply, val_main_v22_apply, val_main_cst_1_apply, eye_apply]
  rfl

/-- The hinge: the cost of the pair. -/
theorem cost_apply (g : Fin 1024) (t : Fin 20) (p q : Fin 64) :
    val_main_v27 (F := Ideal) x (ix4 g t p q) = pairAt x g p q t := by
  rw [val_main_v27_apply, val_main_v26_apply, val_main_v21_apply, val_main_v20_apply, val_main_cst_0_apply,
    val_main_v19_apply, val_main_v18_apply, sq_apply, eyeAll_apply, quarterEye_apply, val_main_call0_v0_apply,
    val_main_call0_cst_apply]
  rfl

/-- Splitting `(20·g + t)·4096 + (64·p + q)` back into its four digits. -/
theorem digits (g t p q : Nat) (ht : t < 20) (hp : p < 64) (hq : q < 64) :
    ((g * 20 + t) * 4096 + (p * 64 + q)) / 81920 = g ∧ ((g * 20 + t) * 4096 + (p * 64 + q)) / 4096 % 20 = t
    ∧ ((g * 20 + t) * 4096 + (p * 64 + q)) / 64 % 64 = p ∧ ((g * 20 + t) * 4096 + (p * 64 + q)) % 64 = q := by
  have h1 : ((g * 20 + t) * 4096 + (p * 64 + q)) / 4096 = g * 20 + t := by omega
  have h2 : ((g * 20 + t) * 4096 + (p * 64 + q)) / 64 = (g * 20 + t) * 64 + p := by omega
  refine ⟨by omega, ?_, ?_, by omega⟩
  · rw [h1]; omega
  · rw [h2]; omega

/-- THE REFERENCE'S RESULT at the flat position of `(g, p, q, t)`. -/
theorem result_apply (g : Fin 1024) (p q : Fin 64) (t : Fin 20) (n : Fin 83886080) (hn : n.val = flatPos g p q t) :
    val_main_v30 (F := Ideal) x (ix1 n) = pairAt x g p q t := by
  rw [val_main_v30_apply, val_main_v29_apply, val_main_v28_apply]
  have e : idx_main_v28 (idx_main_v29 (idx_main_v30 (ix1 n))) = ix4 g t p q := by
    unfold flatPos at hn
    have hg := g.isLt; have ht := t.isLt; have hp := p.isLt; have hq := q.isLt
    have hscene : n.val / 81920 = g.val := by omega
    have htime : n.val % 20 = t.val := by omega
    have hpair : n.val / 20 % 4096 = p.val * 64 + q.val := by omega
    obtain ⟨d0, d1, d2, d3⟩ := digits g.val t.val p.val q.val ht hp hq
    refine funext fun a => Fin.ext ?_
    match a with
    | ⟨0, _⟩ =>
      show ((n.val / 81920 * 20 + n.val % 20) * 4096 + n.val / 20 % 4096) / 81920 = g.val
      rw [hscene, htime, hpair]; exact d0
    | ⟨1, _⟩ =>
      show ((n.val / 81920 * 20 + n.val % 20) * 4096 + n.val / 20 % 4096) / 4096 % 20 = t.val
      rw [hscene, htime, hpair]; exact d1
    | ⟨2, _⟩ =>
      show ((n.val / 81920 * 20 + n.val % 20) * 4096 + n.val / 20 % 4096) / 64 % 64 = p.val
      rw [hscene, htime, hpair]; exact d2
    | ⟨3, _⟩ =>
      show ((n.val / 81920 * 20 + n.val % 20) * 4096 + n.val / 20 % 4096) % 64 = q.val
      rw [hscene, htime, hpair]; exact d3
  rw [e, cost_apply]

end Cert.ReferenceIdeal.RefCost
end
-- ==== Proof.Agreement.lean ====
/-
  The two results are one function of the trajectory.

  Every flat position `n` below 83886080 = 1024 · 4096 · 20 is the position of exactly one `(scene, pair, time)`:
  `g = n / 81920`, `p = (n / 20 % 4096) / 64`, `q = (n / 20 % 4096) % 64`, `t = n % 20`. At that position the
  kernel's result and the reference's are both the pair cost `pairAt` of those coordinates, so they agree there —
  with no condition on the trajectory's entries: both sides apply the same operations in the same order to the same
  entries, and the two coordinates are summed from the same zero.
-/
import proofs.«135333_j76433237999617_2_alg».proof.Proof.KernelCost
import proofs.«135333_j76433237999617_2_alg».proof.Proof.RefCost

noncomputable section

namespace Cert.Agreement

open Idealize.ShloMosaic Idealize.ShloMosaic.ValueIdx
open Cert.PairCost

/-- The kernel's flat result and the reference's are the same function of the trajectory. -/
theorem result_eq (X : (⟨3, ![20, 65536, 2]⟩ : Shape).Idx → EReal) :
    Cert.KernelIdeal.KernelRun.result (F := Ideal) X = Cert.ReferenceIdeal.Read.val_main_v30 (F := Ideal) X := by
  funext i
  have hi : (i 0).val < 83886080 := (i 0).isLt
  rw [eq_ix1 i]
  have hg : (i 0).val / 81920 < 1024 := by omega
  have hp : (i 0).val / 20 % 4096 / 64 < 64 := by omega
  have hq : (i 0).val / 20 % 4096 % 64 < 64 := by omega
  have ht : (i 0).val % 20 < 20 := by omega
  have hn : ((⟨(i 0).val, hi⟩ : Fin 83886080)).val
      = flatPos ⟨(i 0).val / 81920, hg⟩ ⟨(i 0).val / 20 % 4096 / 64, hp⟩ ⟨(i 0).val / 20 % 4096 % 64, hq⟩ ⟨(i 0).val % 20, ht⟩ := by
    unfold flatPos
    show (i 0).val = ((i 0).val / 81920 * 4096 + ((i 0).val / 20 % 4096 / 64 * 64 + (i 0).val / 20 % 4096 % 64)) * 20 + (i 0).val % 20
    omega
  exact (Cert.KernelIdeal.KernelCost.result_apply X _ _ _ _ ⟨(i 0).val, hi⟩ hn).trans
    (Cert.ReferenceIdeal.RefCost.result_apply X _ _ _ _ ⟨(i 0).val, hi⟩ hn).symm

end Cert.Agreement
end
-- ==== Proof.lean ====
/-
  The pairwise collision cost of 1024 scenes of 64 pedestrians over 20 timesteps: a pipelined kernel against its
  array-language reference, equal over the extended reals.

  For scene `g`, pedestrians `p, q` and time `t` both programs compute

      max (1/4 − √(|x(t, 64g+p) − x(t, 64g+q)|² + δ_pq) − 1/4 · δ_pq) 0

  and place it at flat position `((4096·g + 64·p + q)·20 + t)`. The kernel walks 128 grid points of 8 scenes each
  and, in a loop over the scenes of a point, stores one [4096, 20] tile per scene; the reference forms the whole
  [1024, 20, 64, 64] array at once and transposes it. How the proof goes:
    · StagedBlock — the eight tiles a point stores are one function of its input block;
    · KernelArray — the 128 written-back blocks are one function of the trajectory, and cover the array;
    · KernelRun   — the kernel program's run ends with the flattening of that array;
    · Tile        — a tile's entry is the pair cost (the body's arithmetic, read at an index);
    · RefCost     — the reference's entry is the same pair cost (its operations, read at an index);
    · KernelCost, Agreement — both at every flat position, hence equal.
  The trajectory's entries may be any extended reals: both sides apply the same operations in the same order, and the
  only re-association is of a two-term sum. The precondition is not used. The other two arguments are read by
  neither program. The kernel over the extended reals is the kernel's own text, operation for operation, so there is
  nothing to show about its passage from words to extended reals.
-/
import proofs.«135333_j76433237999617_2_alg».proof.Defs
import proofs.«135333_j76433237999617_2_alg».proof.Proof.Gen.Kernel
import proofs.«135333_j76433237999617_2_alg».proof.Proof.Gen.Kernel.Frame
import proofs.«135333_j76433237999617_2_alg».proof.Proof.Gen.KernelIdeal
import proofs.«135333_j76433237999617_2_alg».proof.Proof.Gen.KernelIdeal.Frame
import proofs.«135333_j76433237999617_2_alg».proof.Proof.Gen.ReferenceIdeal
import proofs.«135333_j76433237999617_2_alg».proof.Proof.Gen.Pre_finite_inputs
import proofs.«135333_j76433237999617_2_alg».proof.Proof.Gen.ReferenceIdeal.Run
import proofs.«135333_j76433237999617_2_alg».proof.Proof.Gen.ReferenceIdeal.Read
import proofs.«135333_j76433237999617_2_alg».proof.Proof.Agreement
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the flattened pair costs of the trajectory. -/
theorem algebraic : Cert.algebraic_KernelIdeal_ReferenceIdeal := by
  intro m ρ m' ρ' _ hagree
  refine ⟨fun c => Cert.KernelIdeal.KernelRun.result (F := Ideal) (m ((c.tc : Thread Cert.KernelIdeal.nD Cert.KernelIdeal.τ).loc Cert.KernelIdeal.main_arg0)),
    Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1]
  exact (Cert.Agreement.result_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
